-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : FVec F S65536x1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S65536x1000 .f32 := Host.absf main_arg1
  let main_cst_0 : FVec F S_ .f32 := constant S_ .f32 0x7F800000#32
  let main_v5 : FVec F S65536x1000 .f32 := broadcastInDim S65536x1000 ![] bcast_S_S65536x1000 main_cst_0
  let main_v6 : IVec S65536x1000 1 := cmpf .olt main_v4 main_v5
  let main_c_1 : IVec S_ 1 := constantI S_ 1 1#1
  let main_v7 : IVec S_ 1 := (fun x v => Host.reduce IntOp.andi x v reducesTo_S65536x1000_S_d0_1 h_S_) main_v6 main_c_1
  let main_v8 : IVec S_ 1 := andi main_v3 main_v7
  main_v8
-- ==== Kernel.lean ====
abbrev S65536x1000 : Shape := ⟨2, ![65536, 1000]⟩
abbrev S2x1x1 : Shape := ⟨3, ![2, 1, 1]⟩
abbrev S256x1000 : Shape := ⟨2, ![256, 1000]⟩
abbrev S1x1x1 : Shape := ⟨3, ![1, 1, 1]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x1000, .f32⟩
  | .local _ .vmem, ⟨1, _⟩ => ⟨S256x1000, .f32⟩
  | .local _ .vmem, ⟨2, _⟩ => ⟨S256x1000, .f32⟩
  | .local _ .vmem, ⟨3, _⟩ => ⟨S256x1000, .f32⟩
  | .local _ .vmem, ⟨4, _⟩ => ⟨S1x1x1, .f32⟩
  | .local _ .vmem, ⟨5, _⟩ => ⟨S1x1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x1000_S256x1000_0_0 : ∀ a, (![0, 0] : Fin 2 → Nat) a + S256x1000.size a ≤ S256x1000.size a
  h_S256x1000 : 0 < S256x1000.numel
  reduces_S256x1000_S256 : S256x1000.Reduces [1] S256
  shapeCasts_S256_S256x1 : S256.ShapeCasts S256x1
  broadcasts_S256x1_S256x1000 : S256x1.Broadcasts S256x1000
  reduces_S256x1_S1 : S256x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1000.size a ≤ S65536x1000.size a
  hwx0_0 : ∀ i : grid0.Coords, EltTy.bits .f32 = 32 ∨ (Rect.block (s := S65536x1000) S256x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1000.size a ≤ S65536x1000.size a
  hwx0_1 : ∀ i : grid0.Coords, EltTy.bits .f32 = 32 ∨ (Rect.block (s := S65536x1000) S256x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S256x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S_ : Shape := ⟨0, ![]⟩
abbrev S65536 : Shape := ⟨1, ![65536]⟩
abbrev S65536x1 : Shape := ⟨2, ![65536, 1]⟩

abbrev nBuf : Space → Nat
  | .hbm => 71
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S_, .f32⟩
  | .hbm, ⟨3, _⟩ => ⟨S65536x1000, .f32⟩
  | .hbm, ⟨4, _⟩ => ⟨S65536x1000, .i1⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1000, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536x1000, .f32⟩
  | .hbm, ⟨13, _⟩ => ⟨S65536x1000, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1000, .f32⟩
  | .hbm, ⟨19, _⟩ => ⟨S65536x1000, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S65536x1000, .f32⟩
  | .hbm, ⟨24, _⟩ => ⟨S_, .f32⟩
  | .hbm, ⟨25, _⟩ => ⟨S65536x1000, .f32⟩
  | .hbm, ⟨26, _⟩ => ⟨S65536x1000, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S65536x1000, .f32⟩
  | .hbm, ⟨31, _⟩ => ⟨S65536x1000, .f32⟩
  | .hbm, ⟨32, _⟩ => ⟨S65536x1000, .f32⟩
  | .hbm, ⟨33, _⟩ => ⟨S65536x1000, .f32⟩
  | .hbm, ⟨34, _⟩ => ⟨S65536x1000, .f32⟩
  | .hbm, ⟨35, _⟩ => ⟨S65536x1000, .f32⟩
  | .hbm, ⟨36, _⟩ => ⟨S65536x1000, .f32⟩
  | .hbm, ⟨37, _⟩ => ⟨S65536x1000, .f32⟩
  | .hbm, ⟨38, _⟩ => ⟨S65536x1000, .f32⟩
  | .hbm, ⟨39, _⟩ => ⟨S65536x1000, .f32⟩
  | .hbm, ⟨40, _⟩ => ⟨S65536x1000, .f32⟩
  | .hbm, ⟨41, _⟩ => ⟨S65536x1000, .f32⟩
  | .hbm, ⟨42, _⟩ => ⟨S65536x1000, .i1⟩
  | .hbm, ⟨43, _⟩ => ⟨S65536x1000, .i32⟩
  | .hbm, ⟨44, _⟩ => ⟨S_, .i32⟩
  | .hbm, ⟨45, _⟩ => ⟨S65536, .i32⟩
  | .hbm, ⟨46, _⟩ => ⟨S_, .f32⟩
  | .hbm, ⟨47, _⟩ => ⟨S65536x1000, .f32⟩
  | .hbm, ⟨48, _⟩ => ⟨S65536x1000, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S65536x1, .f32⟩
  | .hbm, ⟨53, _⟩ => ⟨S65536, .f32⟩
  | .hbm, ⟨54, _⟩ => ⟨S65536, .f32⟩
  | .hbm, ⟨55, _⟩ => ⟨S65536, .f32⟩
  | .hbm, ⟨56, _⟩ => ⟨S65536, .f32⟩
  | .hbm, ⟨57, _⟩ => ⟨S65536, .f32⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .f32⟩
  | .hbm, ⟨62, _⟩ => ⟨S_, .i32⟩
  | .hbm, ⟨63, _⟩ => ⟨S65536, .i32⟩
  | .hbm, ⟨64, _⟩ => ⟨S65536, .i1⟩
  | .hbm, ⟨65, _⟩ => ⟨S65536, .f32⟩
  | .hbm, ⟨66, _⟩ => ⟨S65536, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_call0_v0 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call1_v0 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_call2_v0 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_cst_7 : Ref sig .tc := ⟨.hbm, 46, rfl⟩
abbrev main_call3_v0 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  bcast_S_S65536x1000 : S_.BroadcastsInDim S65536x1000 (![] : Fin 0 → Fin S65536x1000.rank)
  reducesTo_S65536x1000_S65536_d1 : S65536x1000.ReducesTo [1] S65536
  h_S_ : 0 < S_.numel
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  natLt_1_32 : 1 < 32
  shapeCasts_S65536x1_S65536 : S65536x1.ShapeCasts S65536
  bcast_S_S65536 : S_.BroadcastsInDim S65536 (![] : Fin 0 → Fin S65536.rank)
  reducesTo_S65536_S_d0 : S65536.ReducesTo [0] S_

variable [Facts₀]

class Facts : Prop extends Facts₀ where

variable [Facts]
-- ==== Proof.Spec.lean ====
/-
  The multi-vector soft-label cross-entropy as ONE function of its two argument arrays, over the extended reals.

  A row of logits `x` and soft labels `t` (1000 entries each) is split by the labels into negatives (`t ≤ 1/2`) and
  positives. With `m = max x`, `e k = exp (x k - m)`, and the three sums over the negatives
  `S = ∑ e`, `T = ∑ t`, `A = ∑ t·x`, the loss of a candidate positive `p` is
  `(T + t p) · (m + log (S + e p)) - A - t p · x p`; the row's loss is the mean of these over the positives, or, when
  the row has none, `T · (m + log S) - A`. The result is the mean of the row losses over the 65536 rows.

  Two facts are proved here, both free of any program:
  * counting the positives with floats (`∑ (0 or 1)`) or with 32-bit integers (sum of the widened complemented bits,
    clamped below by 1, converted) gives the same divisor and the same "has a positive" bit: the count is at most 1000,
    far from wrapping;
  * the total over the 65536 rows is the sum, over 2 halves, of a running sum over 128 blocks of 256 rows each that is
    reset to zero at the first block of its half — addition on the extended reals is commutative and associative and
    `0 + a = a`, and nothing else is used, so no finiteness is needed.
-/
import Idealize.ShloMosaic.PureOps.Ideal
import Idealize.ShloMosaic.PureOps.Ideal.Laws
import Idealize.ShloMosaic.Lib.ValueIdx

noncomputable section

open scoped BigOperators

namespace Cert.CELoss

open Idealize.ShloMosaic Idealize.ShloMosaic.ValueIdx

/-! ## The literals, as the words both programs print -/

abbrev half : EReal := Ideal.ofBits .f32 0x3F000000#32
abbrev zero : EReal := Ideal.ofBits .f32 0x00000000#32
abbrev one : EReal := Ideal.ofBits .f32 0x3F800000#32
abbrev negInf : EReal := Ideal.ofBits .f32 0xFF800000#32
abbrev nRows : EReal := Ideal.ofBits .f32 0x47800000#32

theorem zero_eq : zero = 0 := Ideal.ofBits_zero_f32
theorem one_eq : one = 1 := by
  simp [one, Ideal.ofBits, Ideal.ieee]
  rw [← EReal.coe_mul]; norm_num

/-! ## One row -/

/-- The label is a negative: `t ≤ 1/2`, as a bit. -/
def isNeg (t : EReal) : BitVec 1 := Ideal.cmp .ole t half

/-- The row's maximum (from `-∞`). -/
def rowMax (x : Fin 1000 → EReal) : EReal := (Finset.univ : Finset (Fin 1000)).fold max negInf x

/-- `exp (x k - max x)`. -/
def expShift (x : Fin 1000 → EReal) (k : Fin 1000) : EReal := Ideal.exp (x k - rowMax x)

/-- The three sums over the negatives. -/
def sNeg (x t : Fin 1000 → EReal) : EReal := ∑ k : Fin 1000, Scalar.select (isNeg (t k)) (expShift x k) zero
def tNeg (t : Fin 1000 → EReal) : EReal := ∑ k : Fin 1000, Scalar.select (isNeg (t k)) (t k) zero
def aNeg (x t : Fin 1000 → EReal) : EReal := ∑ k : Fin 1000, Scalar.select (isNeg (t k)) (t k * x k) zero

/-- The loss of candidate positive `k`. -/
def candLoss (x t : Fin 1000 → EReal) (k : Fin 1000) : EReal :=
  (tNeg t + t k) * (rowMax x + Ideal.log (sNeg x t + expShift x k)) - aNeg x t - t k * x k

/-- The number of positives, counted in floats. -/
def nPos (t : Fin 1000 → EReal) : EReal := ∑ k : Fin 1000, Scalar.select (isNeg (t k)) zero one

/-- The candidates' losses summed over the positives. -/
def posLoss (x t : Fin 1000 → EReal) : EReal := ∑ k : Fin 1000, Scalar.select (isNeg (t k)) zero (candLoss x t k)

/-- The loss over the negatives only, for a row without positives. -/
def fallback (x t : Fin 1000 → EReal) : EReal := tNeg t * (rowMax x + Ideal.log (sNeg x t)) - aNeg x t

/-- The row's loss. -/
def rowLoss (x t : Fin 1000 → EReal) : EReal :=
  Scalar.select (Ideal.cmp .ogt (nPos t) zero) (Ideal.div (posLoss x t) (max (nPos t) one)) (fallback x t)

/-! ## The whole arrays -/

/-- Row `i` of a [65536, 1000] array (the row number taken modulo 65536, so that it is a total function of a natural
    number: every use below is at `i < 65536`). -/
def rowAt (x : (⟨2, ![65536, 1000]⟩ : Shape).Idx → EReal) (i : ℕ) : Fin 1000 → EReal :=
  fun k => x (ix2 (⟨i % 65536, Nat.mod_lt _ (by norm_num)⟩ : Fin 65536) k)

/-- The loss of row `i`. -/
def lossAt (x t : (⟨2, ![65536, 1000]⟩ : Shape).Idx → EReal) (i : ℕ) : EReal := rowLoss (rowAt x i) (rowAt t i)

/-- The sum of the row losses. -/
def total (x t : (⟨2, ![65536, 1000]⟩ : Shape).Idx → EReal) : EReal := ∑ i : Fin 65536, lossAt x t i.val

/-- THE RESULT: the mean row loss, `(0 + ∑ rows) / 65536`. -/
def mean (x t : (⟨2, ![65536, 1000]⟩ : Shape).Idx → EReal) : EReal := Ideal.div (zero + total x t) nRows

/-! ## Blocks of 256 rows, and the running sum over the grid -/

/-- The losses of the 256 rows of block `b`, summed. -/
def blockSum (x t : (⟨2, ![65536, 1000]⟩ : Shape).Idx → EReal) (b : ℕ) : EReal :=
  ∑ r : Fin 256, lossAt x t (b * 256 + r.val)

/-- What the accumulator holds after block `n`: reset to zero at the first block of each half (`n ≡ 0 mod 128`), then
    the block's sum added. -/
def running (x t : (⟨2, ![65536, 1000]⟩ : Shape).Idx → EReal) : ℕ → EReal
  | 0 => zero + blockSum x t 0
  | n + 1 => if (n + 1) % 128 = 0 then zero + blockSum x t (n + 1) else running x t n + blockSum x t (n + 1)

theorem running_reset (x t : (⟨2, ![65536, 1000]⟩ : Shape).Idx → EReal) (n : ℕ) (h : n % 128 = 0) :
    running x t n = zero + blockSum x t n := by
  cases n with
  | zero => rfl
  | succ n => exact if_pos h

theorem running_step (x t : (⟨2, ![65536, 1000]⟩ : Shape).Idx → EReal) (n : ℕ) (h : ¬(n + 1) % 128 = 0) :
    running x t (n + 1) = running x t n + blockSum x t (n + 1) := if_neg h

/-- Within half `c`, after its block `j` the accumulator holds the sum of the half's blocks `0 … j`. -/
theorem running_half (x t : (⟨2, ![65536, 1000]⟩ : Shape).Idx → EReal) (c : ℕ) :
    ∀ j : ℕ, j < 128 → running x t (c * 128 + j) = ∑ j' ∈ Finset.range (j + 1), blockSum x t (c * 128 + j')
  | 0, _ => by
    rw [running_reset x t (c * 128 + 0) (by omega), zero_eq, zero_add, Finset.sum_range_one]
  | j + 1, hj => by
    rw [show c * 128 + (j + 1) = (c * 128 + j) + 1 from rfl, running_step x t (c * 128 + j) (by omega),
      running_half x t c j (by omega), Finset.sum_range_succ (fun j' => blockSum x t (c * 128 + j')) (j + 1)]
    rfl

/-- So after the last block of half `c` it holds the half's 128 block sums. -/
theorem running_last (x t : (⟨2, ![65536, 1000]⟩ : Shape).Idx → EReal) (c : ℕ) :
    running x t (c * 128 + 127) = ∑ j : Fin 128, blockSum x t (c * 128 + j.val) := by
  rw [running_half x t c 127 (by norm_num), Fin.sum_univ_eq_sum_range (fun j' => blockSum x t (c * 128 + j')) 128]

/-- A sum over `a·b` consecutive naturals, by `a` groups of `b`. -/
theorem sum_fin_mul {M : Type*} [AddCommMonoid M] (a b : ℕ) (g : ℕ → M) :
    ∑ i : Fin (a * b), g i.val = ∑ p : Fin a, ∑ q : Fin b, g (p.val * b + q.val) := by
  rw [← Equiv.sum_comp (finProdFinEquiv (m := a) (n := b)) (fun i : Fin (a * b) => g i.val), Fintype.sum_prod_type]
  refine Finset.sum_congr rfl fun p _ => Finset.sum_congr rfl fun q _ => ?_
  rw [finProdFinEquiv_apply_val]
  congr 1
  ring

/-- THE REGROUPING: the total over the 65536 rows is the two halves' final accumulators added. -/
theorem total_eq_halves (x t : (⟨2, ![65536, 1000]⟩ : Shape).Idx → EReal) :
    total x t = ∑ c : Fin 2, running x t (c.val * 128 + 127) := by
  unfold total
  rw [show (65536 : ℕ) = 256 * 256 from by norm_num, sum_fin_mul 256 256 (lossAt x t)]
  show ∑ b : Fin 256, blockSum x t b.val = _
  rw [show (256 : ℕ) = 2 * 128 from by norm_num, sum_fin_mul 2 128 (blockSum x t)]
  exact Finset.sum_congr rfl fun c _ => (running_last x t c.val).symm

/-! ## Counting the positives in floats or in 32-bit integers -/

/-- The complemented negative bit, as a number: 1 for a positive, 0 for a negative. -/
def posBit (c : BitVec 1) : ℕ := (~~~c).toNat

theorem posBit_le (c : BitVec 1) : posBit c ≤ 1 := by
  rcases BitVec.eq_zero_or_eq_one c with h | h <;> subst h <;> decide

theorem select_zero_one (c : BitVec 1) : Scalar.select c zero one = ((posBit c : ℕ) : EReal) := by
  rcases BitVec.eq_zero_or_eq_one c with h | h <;> subst h
  · rw [select_zero, one_eq]; simp [posBit]
  · rw [select_one, zero_eq]; simp [posBit]

theorem setWidth_not (c : BitVec 1) : (~~~c).setWidth 32 = BitVec.ofNat 32 (posBit c) := by
  rcases BitVec.eq_zero_or_eq_one c with h | h <;> subst h <;> decide

/-- Folding 32-bit addition over words that are small naturals gives the word of the naturals' sum. -/
theorem fold_addi_ofNat {ι : Type*} [DecidableEq ι] (s : Finset ι) (f : ι → ℕ) :
    s.fold IntOp.addi 0#32 (fun k => BitVec.ofNat 32 (f k)) = BitVec.ofNat 32 (∑ k ∈ s, f k) := by
  induction s using Finset.induction_on with
  | empty => simp
  | insert a s ha ih =>
    rw [Finset.fold_insert ha, ih, Finset.sum_insert ha]
    show BitVec.ofNat 32 (f a) + BitVec.ofNat 32 (∑ k ∈ s, f k) = _
    rw [← BitVec.ofNat_add]

/-- The number of positives of a row of negative bits. -/
def count (c : Fin 1000 → BitVec 1) : ℕ := ∑ k : Fin 1000, posBit (c k)

theorem count_le (c : Fin 1000 → BitVec 1) : count c ≤ 1000 := by
  unfold count
  calc ∑ k : Fin 1000, posBit (c k) ≤ ∑ _k : Fin 1000, 1 := Finset.sum_le_sum fun k _ => posBit_le (c k)
    _ = 1000 := by simp

/-- The float count is the number. -/
theorem float_count (c : Fin 1000 → BitVec 1) :
    ∑ k : Fin 1000, Scalar.select (c k) zero one = ((count c : ℕ) : EReal) := by
  unfold count
  rw [Nat.cast_sum]
  exact Finset.sum_congr rfl fun k _ => select_zero_one (c k)

/-- The integer count is the number's word. -/
theorem int_count (c : Fin 1000 → BitVec 1) :
    (Finset.univ : Finset (Fin 1000)).fold IntOp.addi 0#32 (fun k => (~~~(c k)).setWidth 32) = BitVec.ofNat 32 (count c) := by
  have e : (fun k : Fin 1000 => (~~~(c k)).setWidth 32) = fun k => BitVec.ofNat 32 (posBit (c k)) :=
    funext fun k => setWidth_not (c k)
  rw [e]
  exact fold_addi_ofNat Finset.univ fun k => posBit (c k)

theorem toInt_ofNat_small (n : ℕ) (h : n ≤ 1000) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

/-- The divisor: the integer count clamped below by 1 and converted is the float count clamped below by 1. -/
theorem divisor_eq (n : ℕ) (h : n ≤ 1000) :
    (((IntOp.maxsi (BitVec.ofNat 32 n) 1#32).toInt : ℝ) : EReal) = max ((n : ℕ) : EReal) one := by
  rw [one_eq]
  unfold IntOp.maxsi
  have h1 : (1#32 : BitVec 32).toInt = 1 := by decide
  have hs : ((1#32 : BitVec 32).slt (BitVec.ofNat 32 n) = true) ↔ (1 : ℤ) < (n : ℤ) := by
    rw [BitVec.slt_iff_toInt_lt, toInt_ofNat_small n h, h1]
  by_cases hn : (1 : ℤ) < (n : ℤ)
  · rw [if_pos (hs.mpr hn), toInt_ofNat_small n h]
    have : (1 : EReal) ≤ ((n : ℕ) : EReal) := by exact_mod_cast hn.le
    rw [max_eq_left this]
    norm_cast
  · rw [if_neg (fun hh => hn (hs.mp hh)), h1]
    have hle : (n : ℤ) ≤ 1 := not_lt.mp hn
    have : ((n : ℕ) : EReal) ≤ 1 := by exact_mod_cast hle
    rw [max_eq_right this]
    norm_cast

/-- The "has a positive" bit: the signed integer test `count > 0` is the float test. -/
theorem haspos_eq (n : ℕ) (h : n ≤ 1000) :
    IntOp.cmpi .sgt (BitVec.ofNat 32 n) 0#32 = Ideal.cmp .ogt ((n : ℕ) : EReal) zero := by
  rw [zero_eq]
  unfold IntOp.cmpi Ideal.cmp
  dsimp only
  congr 1
  have h0 : (0#32 : BitVec 32).toInt = 0 := by decide
  rw [BitVec.slt_eq_decide, toInt_ofNat_small n h, h0]
  have : ((0 : ℤ) < (n : ℤ)) ↔ ((0 : EReal) < ((n : ℕ) : EReal)) := by
    constructor
    · intro hh; exact_mod_cast hh
    · intro hh; exact_mod_cast hh
  exact decide_eq_decide.mpr this

end Cert.CELoss

end
-- ==== Proof.KernelRow.lean ====
/-
  The kernel body's arithmetic, read at an index of the extended reals.

  The body works on a block of 256 rows of logits `x` and labels `t`. Every per-row quantity is a lane sum or a lane
  maximum kept as a [256, 1] column; a column laid back along the lanes gives each entry of row `r` the column's entry
  `r`. Read index by index, the six row payloads are the row's maximum, its three sums over the negatives, its count of
  positives and the masked candidate losses of `Spec`, and the body's one accumulating store adds to the old contents
  the sum over the 256 rows of `rowLoss`.
-/
import proofs.«139822_g35150012350881_feedfinal_650_5_alg».proof.Proof.Gen.KernelIdeal.Skeleton
import proofs.«139822_g35150012350881_feedfinal_650_5_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Row

open Idealize.ShloMosaic Idealize.ShloMosaic.ValueIdx Cert.KernelIdeal Cert.KernelIdeal.Gen Cert.CELoss

/-- Row `r` of a [256, 1000] block. -/
def brow (x : Vec Ideal S256x1000 .f32) (r : Fin 256) : Fin 1000 → EReal := fun k => x (ix2 r k)

/-! ## The layout operations of the body, at an index -/

/-- Lane `k` put back into row `r`'s reduced index is the entry (r, k). -/
theorem lift_lane (h : S256x1000.Reduces [1] S256) (r : Fin 256) (k : Fin 1000) :
    h.lift (ix1 r) k = ix2 r k := by
  funext c; apply Fin.ext
  fin_cases c <;> rfl

/-- Row `r` put back into the one reduced index of a column is the entry (r, 0). -/
theorem lift_row (h : S256x1.Reduces [0] S1) (r : Fin 256) :
    h.lift (ix1 (0 : Fin 1)) r = ix2 r (0 : Fin 1) := by
  funext c; apply Fin.ext
  fin_cases c <;> rfl

/-- A [256] vector kept as a [256, 1] column: entry (r, 0) is entry r. -/
theorem keepdims_apply {α : Type} (v : S256.Idx → α) (hc : S256.ShapeCasts S256x1) (r : Fin 256) :
    shapeCast S256x1 v hc (ix2 r (0 : Fin 1)) = v (ix1 r) :=
  shapeCast_apply v hc (ix2 r (0 : Fin 1)) (ix1 r) (by
    rw [Shape.rowMajor_val_one, Shape.rowMajor_val_two]
    show r.val = r.val * 1 + 0
    omega)

/-- A lane sum kept as a column: entry (r, 0) is the sum of row r. -/
theorem rowSumCol (v : FVec Ideal S256x1000 .f32) (h : S256x1000.Reduces [1] S256) (hφ : FKind.Formats .f32)
    (hacc : (0x00000000#32 : BitVec 32) = FKind.add.neutral .f32 hφ) (hc : S256.ShapeCasts S256x1) (r : Fin 256) :
    shapeCast S256x1 (multiReduction .add [1] S256 v 0x00000000#32 h hφ hacc) hc (ix2 r (0 : Fin 1))
      = ∑ k : Fin 1000, v (ix2 r k) := by
  refine (keepdims_apply _ hc r).trans ?_
  refine (Ideal.multiReduction_add_single v 0x00000000#32 h hφ hacc (ix1 r)).trans ?_
  show ∑ k : Fin 1000, v (h.lift (ix1 r) k) = _
  exact Finset.sum_congr rfl fun k _ => congrArg v (lift_lane h r k)

/-- A lane maximum kept as a column: entry (r, 0) is the maximum of row r. -/
theorem rowMaxCol (v : FVec Ideal S256x1000 .f32) (h : S256x1000.Reduces [1] S256) (hφ : FKind.Formats .f32)
    (hacc : (0xFF800000#32 : BitVec 32) = FKind.maximumf.neutral .f32 hφ) (hc : S256.ShapeCasts S256x1) (r : Fin 256) :
    shapeCast S256x1 (multiReduction .maximumf [1] S256 v 0xFF800000#32 h hφ hacc) hc (ix2 r (0 : Fin 1))
      = rowMax (brow v r) := by
  refine (keepdims_apply _ hc r).trans ?_
  refine (Ideal.multiReduction_maximumf_single v 0xFF800000#32 h hφ hacc (ix1 r)).trans ?_
  show (Finset.univ : Finset (Fin 1000)).fold max negInf (v ∘ h.lift (ix1 r)) = _
  unfold rowMax
  exact congrArg (fun f => (Finset.univ : Finset (Fin 1000)).fold max negInf f)
    (funext fun k => congrArg v (lift_lane h r k))

/-- A column laid along the lanes: entry (r, k) is the column's entry (r, 0). -/
theorem spread_apply {α : Type} (u : S256x1.Idx → α) (hb : S256x1.Broadcasts S256x1000) (r : Fin 256) (k : Fin 1000) :
    broadcastTo S256x1000 u hb (ix2 r k) = u (ix2 r (0 : Fin 1)) :=
  broadcastTo_apply u hb (ix2 r k) (ix2 r (0 : Fin 1)) (fun a => match a with
    | ⟨0, _⟩ => by show r.val = if (256 : Nat) = 1 then 0 else r.val; rw [if_neg (by decide)]
    | ⟨1, _⟩ => by show (0 : Nat) = if (1 : Nat) = 1 then 0 else k.val; rw [if_pos rfl])

/-- A sum down a column, cast to the [1, 1, 1] block: its one entry is the sum of the column. -/
theorem colSum_apply (v : FVec Ideal S256x1 .f32) (h : S256x1.Reduces [0] S1) (hφ : FKind.Formats .f32)
    (hacc : (0x00000000#32 : BitVec 32) = FKind.add.neutral .f32 hφ) (h1 : S1.ShapeCasts S1x1) (h2 : S1x1.ShapeCasts S1x1x1) :
    shapeCast S1x1x1 (shapeCast S1x1 (multiReduction .add [0] S1 v 0x00000000#32 h hφ hacc) h1) h2 (ix3 (0 : Fin 1) (0 : Fin 1) (0 : Fin 1))
      = ∑ r : Fin 256, v (ix2 r (0 : Fin 1)) := by
  refine (shapeCast_apply _ h2 (ix3 (0 : Fin 1) (0 : Fin 1) (0 : Fin 1)) (ix2 (0 : Fin 1) (0 : Fin 1)) (by
    rw [Shape.rowMajor_val_two, Shape.rowMajor_val_three]; rfl)).trans ?_
  refine (shapeCast_apply _ h1 (ix2 (0 : Fin 1) (0 : Fin 1)) (ix1 (0 : Fin 1)) (by
    rw [Shape.rowMajor_val_one, Shape.rowMajor_val_two]; rfl)).trans ?_
  refine (Ideal.multiReduction_add_single v 0x00000000#32 h hφ hacc (ix1 (0 : Fin 1))).trans ?_
  show ∑ r : Fin 256, v (h.lift (ix1 (0 : Fin 1)) r) = _
  exact Finset.sum_congr rfl fun r _ => congrArg v (lift_row h r)

/-! ## The payloads, row by row -/

variable (x t : Vec Ideal S256x1000 .f32)

/-- The negatives' mask at (r, k). -/
theorem pay3_apply (r : Fin 256) (k : Fin 1000) : k0_pay3 t (ix2 r k) = isNeg (t (ix2 r k)) := rfl

/-- The row maximum. -/
theorem pay4_apply (r : Fin 256) : k0_pay4 x (ix2 r (0 : Fin 1)) = rowMax (brow x r) := by
  unfold k0_pay4
  exact rowMaxCol x _ _ _ _ r

/-- The shifted exponential. -/
theorem pay5_apply (r : Fin 256) (k : Fin 1000) : k0_pay5 x (ix2 r k) = expShift (brow x r) k := by
  show Ideal.exp (x (ix2 r k) - broadcastTo S256x1000 (k0_pay4 x) _ (ix2 r k)) = _
  rw [spread_apply, pay4_apply]
  rfl

/-- The sum of the shifted exponentials over the negatives. -/
theorem pay6_apply (r : Fin 256) : k0_pay6 x t (ix2 r (0 : Fin 1)) = sNeg (brow x r) (brow t r) := by
  unfold k0_pay6
  refine (rowSumCol _ _ _ _ _ r).trans ?_
  refine Finset.sum_congr rfl fun k _ => ?_
  show Scalar.select (k0_pay3 t (ix2 r k)) (k0_pay5 x (ix2 r k)) zero = _
  rw [pay5_apply]
  rfl

/-- The sum of the labels over the negatives. -/
theorem pay7_apply (r : Fin 256) : k0_pay7 t (ix2 r (0 : Fin 1)) = tNeg (brow t r) := by
  unfold k0_pay7
  refine (rowSumCol _ _ _ _ _ r).trans ?_
  rfl

/-- The sum of label times logit over the negatives. -/
theorem pay8_apply (r : Fin 256) : k0_pay8 x t (ix2 r (0 : Fin 1)) = aNeg (brow x r) (brow t r) := by
  unfold k0_pay8
  refine (rowSumCol _ _ _ _ _ r).trans ?_
  rfl

/-- The float count of the positives. -/
theorem pay9_apply (r : Fin 256) : k0_pay9 t (ix2 r (0 : Fin 1)) = nPos (brow t r) := by
  unfold k0_pay9
  refine (rowSumCol _ _ _ _ _ r).trans ?_
  rfl

/-- The candidate's loss, zeroed at the negatives. -/
theorem pay10_apply (r : Fin 256) (k : Fin 1000) :
    k0_pay10 x t (ix2 r k) = Scalar.select (isNeg (t (ix2 r k))) zero (candLoss (brow x r) (brow t r) k) := by
  show Scalar.select (k0_pay3 t (ix2 r k)) zero
      ((broadcastTo S256x1000 (k0_pay7 t) _ (ix2 r k) + t (ix2 r k))
          * (broadcastTo S256x1000 (k0_pay4 x) _ (ix2 r k)
            + Ideal.log (broadcastTo S256x1000 (k0_pay6 x t) _ (ix2 r k) + k0_pay5 x (ix2 r k)))
        - broadcastTo S256x1000 (k0_pay8 x t) _ (ix2 r k) - t (ix2 r k) * x (ix2 r k)) = _
  rw [spread_apply, spread_apply, spread_apply, spread_apply, pay7_apply, pay4_apply, pay6_apply, pay8_apply, pay5_apply]
  rfl

/-- The body's one accumulating store, as a function of the two input blocks and of the block's old contents. -/
def bodyPay {F : FTy → Type} [FloatOps F] (x0 x1 : Vec F S256x1000 .f32) (old : Vec F S1x1x1 .f32) : Vec F S1x1x1 .f32 :=
  k0_pay2 (k0_pay4 x0) (k0_pay6 x0 x1) (k0_pay7 x1) (k0_pay8 x0 x1) (k0_pay9 x1) (k0_pay10 x0 x1) old

/-- The row loss, as the body's select of the mean over the positives or the loss over the negatives. -/
theorem rowLoss_col (r : Fin 256) :
    Scalar.select (Ideal.cmp .ogt (k0_pay9 t (ix2 r (0 : Fin 1))) zero)
        (Ideal.div (∑ k : Fin 1000, k0_pay10 x t (ix2 r k)) (max (k0_pay9 t (ix2 r (0 : Fin 1))) one))
        (k0_pay7 t (ix2 r (0 : Fin 1)) * (k0_pay4 x (ix2 r (0 : Fin 1)) + Ideal.log (k0_pay6 x t (ix2 r (0 : Fin 1))))
          - k0_pay8 x t (ix2 r (0 : Fin 1)))
      = rowLoss (brow x r) (brow t r) := by
  rw [pay9_apply, pay7_apply, pay4_apply, pay6_apply, pay8_apply]
  have e : ∑ k : Fin 1000, k0_pay10 x t (ix2 r k) = posLoss (brow x r) (brow t r) :=
    Finset.sum_congr rfl fun k _ => pay10_apply x t r k
  rw [e]
  rfl

/-- THE BODY'S VALUE: the old contents plus the 256 row losses of the block. -/
theorem bodyPay_apply (old : Vec Ideal S1x1x1 .f32) :
    bodyPay x t old (ix3 (0 : Fin 1) (0 : Fin 1) (0 : Fin 1))
      = old (ix3 (0 : Fin 1) (0 : Fin 1) (0 : Fin 1)) + ∑ r : Fin 256, rowLoss (brow x r) (brow t r) := by
  unfold bodyPay k0_pay2
  refine (addf_apply _ _ _).trans ?_
  refine congrArg₂ (· + ·) (congrFun (shapeCast_self old _) _) ?_
  refine (colSum_apply _ _ _ _ _ _).trans ?_
  refine Finset.sum_congr rfl fun r _ => ?_
  refine Eq.trans ?_ (rowLoss_col x t r)
  exact congrArg (fun s => Scalar.select (Ideal.cmp .ogt (k0_pay9 t (ix2 r (0 : Fin 1))) zero)
      (Ideal.div s (max (k0_pay9 t (ix2 r (0 : Fin 1))) one))
      (k0_pay7 t (ix2 r (0 : Fin 1)) * (k0_pay4 x (ix2 r (0 : Fin 1)) + Ideal.log (k0_pay6 x t (ix2 r (0 : Fin 1))))
        - k0_pay8 x t (ix2 r (0 : Fin 1))))
    (rowSumCol (k0_pay10 x t) _ _ _ _ r)

end Cert.KernelIdeal.Row

end
-- ==== Proof.KernelPieces.lean ====
/-
  What one run of the kernel body leaves in the output block, as a value.

  The body stores once into the [1,1,1] output block at a point that is not the first of its half: the block's old
  contents plus the sum of the 256 row losses of the point's input blocks. At the first point of a half it first
  stores a zero block, reads it back, and then does the same. So in both cases the block ends at ONE pure term of the two
  input blocks and of an "old" block — the zero block in the first case, the carried contents in the other.
-/
import proofs.«139822_g35150012350881_feedfinal_650_5_alg».proof.Proof.Gen.KernelIdeal.Frame
import proofs.«139822_g35150012350881_feedfinal_650_5_alg».proof.Proof.KernelRow
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen
open Cert.KernelIdeal.Row (bodyPay)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its half: the old contents, and the block sum added. -/
theorem out_B (c : Dev nD) (i : grid0.Coords) (arg2 : Memref sig .tc .vmem S256x1000 .f32) (harg2 : arg2.IsWhole)
    (arg3 : Memref sig .tc .vmem S256x1000 .f32) (harg3 : arg3.IsWhole) (arg4 : Memref sig .tc .vmem S1x1x1 .f32)
    (harg4 : arg4.IsWhole) (hc0 : ¬cond0_0 i) (x0 x1 : Vec F S256x1000 .f32) (xo2 : Vec F S1x1x1 .f32) :
    out0_B_2 c i arg2 harg2 arg3 harg3 arg4 harg4 hc0 x0 x1 xo2 = bodyPay x0 x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz3]
  simp only [View.readAt_eq_ld, harg2.read_unread, harg3.read_unread, harg4.read_unread,
    View.ld_unit_zero (S := S256x1000) hz2, View.ld_unit_zero (S := S1x1x1) hz3]
  rfl

/-- The first point of a half: the zero block stored and read back, then the block sum added. -/
theorem out_A (c : Dev nD) (i : grid0.Coords) (arg2 : Memref sig .tc .vmem S256x1000 .f32) (harg2 : arg2.IsWhole)
    (arg3 : Memref sig .tc .vmem S256x1000 .f32) (harg3 : arg3.IsWhole) (arg4 : Memref sig .tc .vmem S1x1x1 .f32)
    (harg4 : arg4.IsWhole) (hc0 : cond0_0 i) (x0 x1 : Vec F S256x1000 .f32) :
    out0_A_2 c i arg2 harg2 arg3 harg3 arg4 harg4 hc0 x0 x1 = bodyPay x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, View.ld_unit_zero (S := S256x1000) hz2]
  rfl

end Cert.KernelIdeal.Pieces

end
-- ==== Proof.KernelBlocks.lean ====
/-
  What the output block holds after each grid point.

  Point `t` of the 2 × 128 grid stages block `t` of both arguments: rows `256·t … 256·t + 255`. The body adds the
  block's 256 row losses to the carried [1, 1, 1] output block, which it resets to zero at the first point of each half
  (`t ≡ 0 mod 128`). By induction on the point, the block holds `running` of `Spec` after every point.
-/
import proofs.«139822_g35150012350881_feedfinal_650_5_alg».proof.Proof.KernelPieces

set_option maxRecDepth 16384

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Row Cert.KernelIdeal.Pieces Cert.CELoss Idealize.ShloMosaic.ValueIdx

variable (m : (ℓ : Loc nD τ sig) → Buf (Elt Ideal) ℓ)

/-- The two argument arrays on core `c`. -/
abbrev argX (c : Dev nD) : FVec Ideal S65536x1000 .f32 := m ((c.tc : Thread nD τ).loc main_arg0)
abbrev argT (c : Dev nD) : FVec Ideal S65536x1000 .f32 := m ((c.tc : Thread nD τ).loc main_arg1)

/-- Both input windows' block index at point `t` is `(t, 0)`: decided over the grid. -/
theorem idx_in : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

/-- Row `r` of the logits' block at point `t` is row `256·t + r` of the array. -/
theorem brow_iblk0 (c : Dev nD) (t : Fin cfg0.N) (r : Fin 256) :
    brow (iblk m c 0 t) r = rowAt (argX m c) (t.val * 256 + r.val) := by
  have hN : t.val < 256 := lt_of_lt_of_eq t.isLt (show cfg0.N = 256 from N_0)
  funext k
  unfold brow rowAt iblk
  rw [View.read_apply]
  show V m c main_arg0 _ = m ((c.tc : Thread nD τ).loc main_arg0) _
  refine congrArg (m ((c.tc : Thread nD τ).loc main_arg0)) (funext fun a => Fin.ext ?_)
  match a with
  | ⟨0, _⟩ =>
    show win0_0.index t 0 * 256 + 1 * r.val = (t.val * 256 + r.val) % 65536
    rw [(idx_in t).1]; omega
  | ⟨1, _⟩ =>
    show win0_0.index t 1 * 1000 + 1 * k.val = k.val
    rw [(idx_in t).2.1]; omega

/-- The same of the labels' block. -/
theorem brow_iblk1 (c : Dev nD) (t : Fin cfg0.N) (r : Fin 256) :
    brow (iblk m c 1 t) r = rowAt (argT m c) (t.val * 256 + r.val) := by
  have hN : t.val < 256 := lt_of_lt_of_eq t.isLt (show cfg0.N = 256 from N_0)
  funext k
  unfold brow rowAt iblk
  rw [View.read_apply]
  show V m c main_arg1 _ = m ((c.tc : Thread nD τ).loc main_arg1) _
  refine congrArg (m ((c.tc : Thread nD τ).loc main_arg1)) (funext fun a => Fin.ext ?_)
  match a with
  | ⟨0, _⟩ =>
    show win0_1.index t 0 * 256 + 1 * r.val = (t.val * 256 + r.val) % 65536
    rw [(idx_in t).2.2.1]; omega
  | ⟨1, _⟩ =>
    show win0_1.index t 1 * 1000 + 1 * k.val = k.val
    rw [(idx_in t).2.2.2]; omega

/-- One run of the body at point `t` adds block `t`'s sum of row losses to the old contents. -/
theorem point_value (c : Dev nD) (t : Fin cfg0.N) (old : Vec Ideal S1x1x1 .f32) :
    bodyPay (iblk m c 0 t) (iblk m c 1 t) old (ix3 (0 : Fin 1) (0 : Fin 1) (0 : Fin 1))
      = old (ix3 (0 : Fin 1) (0 : Fin 1) (0 : Fin 1)) + blockSum (argX m c) (argT m c) t.val := by
  refine (bodyPay_apply (iblk m c 0 t) (iblk m c 1 t) old).trans ?_
  refine congrArg (old (ix3 (0 : Fin 1) (0 : Fin 1) (0 : Fin 1)) + ·) ?_
  unfold blockSum lossAt
  exact Finset.sum_congr rfl fun r _ => by rw [brow_iblk0 m c t r, brow_iblk1 m c t r]

/-- At the first point of a half the block ends at zero plus the point's block sum. -/
theorem outsAt_A (c : Dev nD) (t : Fin cfg0.N) (h0 : t.val % 128 = 0) :
    outsAt0 m c t.val t.isLt (ix3 (0 : Fin 1) (0 : Fin 1) (0 : Fin 1)) = zero + blockSum (argX m c) (argT m c) t.val :=
  (congrFun ((outsAt0_A m c t h0).trans
      (out_A c (grid0.coords t) (ms0_0 t) (hs0_0 t) (ms0_1 t) (hs0_1 t) (ms0_2 t) (hs0_2 t) ((hcond0_0 t).mpr h0)
        (iblk m c 0 t) (iblk m c 1 t))) _).trans
    (point_value m c t (k0_pay1 (F := Ideal)))

/-- At any other point it ends at what the point before left plus the point's block sum. -/
theorem outsAt_B (c : Dev nD) (t : Fin cfg0.N) (h0 : ¬t.val % 128 = 0) :
    outsAt0 m c t.val t.isLt (ix3 (0 : Fin 1) (0 : Fin 1) (0 : Fin 1))
      = outsAt0 m c (t.val - 1) (Nat.lt_of_le_of_lt (Nat.sub_le _ _) t.isLt) (ix3 (0 : Fin 1) (0 : Fin 1) (0 : Fin 1))
        + blockSum (argX m c) (argT m c) t.val :=
  (congrFun ((outsAt0_B m c t h0).trans
      (out_B c (grid0.coords t) (ms0_0 t) (hs0_0 t) (ms0_1 t) (hs0_1 t) (ms0_2 t) (hs0_2 t) (fun h => h0 ((hcond0_0 t).mp h))
        (iblk m c 0 t) (iblk m c 1 t) (outsAt0 m c (t.val - 1) (Nat.lt_of_le_of_lt (Nat.sub_le _ _) t.isLt)))) _).trans
    (point_value m c t _)

/-- THE ACCUMULATION: after point `n` the output block holds the running sum. -/
theorem outsAt_eq (c : Dev nD) : ∀ (n : ℕ) (h : n < cfg0.N),
    outsAt0 m c n h (ix3 (0 : Fin 1) (0 : Fin 1) (0 : Fin 1)) = running (argX m c) (argT m c) n
  | 0, h => (outsAt_A m c ⟨0, h⟩ rfl).trans (running_reset _ _ 0 rfl).symm
  | n + 1, h => by
    by_cases h0 : (n + 1) % 128 = 0
    · exact (outsAt_A m c ⟨n + 1, h⟩ h0).trans (running_reset _ _ (n + 1) h0).symm
    · refine (outsAt_B m c ⟨n + 1, h⟩ h0).trans ?_
      show outsAt0 m c n _ (ix3 (0 : Fin 1) (0 : Fin 1) (0 : Fin 1)) + _ = _
      rw [outsAt_eq c n]
      exact (running_step _ _ n h0).symm

end Cert.KernelIdeal.Blocks

end
-- ==== Proof.KernelFinal.lean ====
/-
  The kernel's result.

  The output window's block index is the half `t / 128`, and the block is written back only after the last point of each
  half (`t ≡ 127 mod 128`). So entry `(h, 0, 0)` of the region's [2, 1, 1] result array ends at the running sum after
  point `128·h + 127`: the sum of half `h`'s 128 block sums. The host lines after the region add the two entries from
  zero and divide by 65536: the mean of the 65536 row losses.
-/
import proofs.«139822_g35150012350881_feedfinal_650_5_alg».proof.Proof.KernelBlocks
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Row Cert.KernelIdeal.Pieces Cert.KernelIdeal.Blocks Cert.CELoss
open Idealize.ShloMosaic.ValueIdx Idealize.ShloMosaic.StableHlo

variable (m : (ℓ : Loc nD τ sig) → Buf (Elt Ideal) ℓ) (ρ : Dev nD → PrngReg)

/-- The last point of half `h`. -/
def lastPt (h : Fin 2) : Fin cfg0.N := ⟨h.val * 128 + 127, by rw [show cfg0.N = 256 from N_0]; omega⟩

/-- What the region's result array ends holding: entry `(h, 0, 0)` is the running sum after half `h`'s last point. -/
def halves (c : Dev nD) : FVec Ideal S2x1x1 .f32 := fun i => running (argX m c) (argT m c) ((i 0).val * 128 + 127)

/-- The [1, 1, 1] block has one index. -/
theorem idx111 (y : S1x1x1.Idx) : y = ix3 (0 : Fin 1) (0 : Fin 1) (0 : Fin 1) := by
  funext a
  apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

/-- The write-back after the last point of the first half writes the running sum there into block `(0, 0, 0)`. -/
theorem flushed_half0 (c : Dev nD) :
    (dats m 0 c).flushed 2 (lastPt 0) = ((cfg0.win 2).blk (lastPt 0)).view.read (Elt Ideal) (halves m c) := by
  show (cfg0.win 2).cut (grid0.coords (lastPt 0)) ((dats m 0 c).after 2 (lastPt 0)) = _
  rw [after0_2]
  funext y
  rw [View.read_apply]
  show outsAt0 m c (lastPt 0).val (lastPt 0).isLt ((cfg0.win 2).xinj (grid0.coords (lastPt 0)) y)
      = halves m c (((cfg0.win 2).blk (lastPt 0)).view.emb y)
  rw [idx111 ((cfg0.win 2).xinj (grid0.coords (lastPt 0)) y), outsAt_eq]
  unfold halves
  refine congrArg (running (argX m c) (argT m c)) ?_
  have hy : (y (0 : Fin 3)).val < 1 := lt_of_lt_of_eq (y (0 : Fin 3)).isLt (by decide +kernel)
  show (lastPt 0).val = (win0_2.index (lastPt 0) 0 * win0_2.size 0 + 1 * (y (0 : Fin 3)).val) * 128 + 127
  rw [show win0_2.index (lastPt 0) 0 * win0_2.size 0 = 0 from by decide +kernel]
  show 0 * 128 + 127 = _
  omega

/-- The same after the last point of the second half, into block `(1, 0, 0)`. -/
theorem flushed_half1 (c : Dev nD) :
    (dats m 0 c).flushed 2 (lastPt 1) = ((cfg0.win 2).blk (lastPt 1)).view.read (Elt Ideal) (halves m c) := by
  show (cfg0.win 2).cut (grid0.coords (lastPt 1)) ((dats m 0 c).after 2 (lastPt 1)) = _
  rw [after0_2]
  funext y
  rw [View.read_apply]
  show outsAt0 m c (lastPt 1).val (lastPt 1).isLt ((cfg0.win 2).xinj (grid0.coords (lastPt 1)) y)
      = halves m c (((cfg0.win 2).blk (lastPt 1)).view.emb y)
  rw [idx111 ((cfg0.win 2).xinj (grid0.coords (lastPt 1)) y), outsAt_eq]
  unfold halves
  refine congrArg (running (argX m c) (argT m c)) ?_
  have hy : (y (0 : Fin 3)).val < 1 := lt_of_lt_of_eq (y (0 : Fin 3)).isLt (by decide +kernel)
  show (lastPt 1).val = (win0_2.index (lastPt 1) 0 * win0_2.size 0 + 1 * (y (0 : Fin 3)).val) * 128 + 127
  rw [show win0_2.index (lastPt 1) 0 * win0_2.size 0 = 1 from by decide +kernel]
  show 1 * 128 + 127 = _
  omega

theorem flushed_half (c : Dev nD) : ∀ h : Fin 2,
    (dats m 0 c).flushed 2 (lastPt h) = ((cfg0.win 2).blk (lastPt h)).view.read (Elt Ideal) (halves m c)
  | ⟨0, _⟩ => flushed_half0 m c
  | ⟨1, _⟩ => flushed_half1 m c

/-- A flushing point is the last point of a half. -/
theorem flush_lastPt (t : Fin cfg0.N) (hf : (cfg0.win 2).flush t = true) : ∃ h : Fin 2, t = lastPt h := by
  have hN : t.val < 256 := lt_of_lt_of_eq t.isLt (show cfg0.N = 256 from N_0)
  have h127 : t.val % 128 = 127 := (flush0_2 t).mp hf
  by_cases h : t.val < 128
  · exact ⟨0, Fin.ext (by show t.val = 0 * 128 + 127; omega)⟩
  · exact ⟨1, Fin.ext (by show t.val = 1 * 128 + 127; omega)⟩

theorem flushed_eq (c : Dev nD) (t : Fin cfg0.N) (hf : (cfg0.win 2).flush t = true) :
    (dats m 0 c).flushed 2 t = ((cfg0.win 2).blk t).view.read (Elt Ideal) (halves m c) := by
  obtain ⟨h, rfl⟩ := flush_lastPt t hf
  exact flushed_half m c h

/-- Entry `(h, 0, 0)` of the result array lies in the block written back after half `h`. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 1 := (i 1).isLt
  have h2 : (i 2 : Nat) < 1 := (i 2).isLt
  by_cases hh : (i 0 : Nat) = 0
  · refine ⟨lastPt 0, (flush0_2 _).mpr rfl, ?_⟩
    show i ∈ ((View.whole main_v0).slice (win0_2.rect (lastPt 0))).set
    rw [View.set_slice_whole, Rect.mem_set_unit]
    intro a
    match a with
    | ⟨0, _⟩ =>
      show win0_2.index (lastPt 0) 0 * win0_2.size 0 ≤ (i 0 : Nat) ∧ (i 0 : Nat) < win0_2.index (lastPt 0) 0 * win0_2.size 0 + win0_2.xsize (grid0.coords (lastPt 0)) 0
      rw [show win0_2.index (lastPt 0) 0 * win0_2.size 0 = 0 from by decide +kernel, show win0_2.xsize (grid0.coords (lastPt 0)) 0 = 1 from by decide +kernel]; omega
    | ⟨1, _⟩ =>
      show win0_2.index (lastPt 0) 1 * win0_2.size 1 ≤ (i 1 : Nat) ∧ (i 1 : Nat) < win0_2.index (lastPt 0) 1 * win0_2.size 1 + win0_2.xsize (grid0.coords (lastPt 0)) 1
      rw [show win0_2.index (lastPt 0) 1 * win0_2.size 1 = 0 from by decide +kernel, show win0_2.xsize (grid0.coords (lastPt 0)) 1 = 1 from by decide +kernel]; omega
    | ⟨2, _⟩ =>
      show win0_2.index (lastPt 0) 2 * win0_2.size 2 ≤ (i 2 : Nat) ∧ (i 2 : Nat) < win0_2.index (lastPt 0) 2 * win0_2.size 2 + win0_2.xsize (grid0.coords (lastPt 0)) 2
      rw [show win0_2.index (lastPt 0) 2 * win0_2.size 2 = 0 from by decide +kernel, show win0_2.xsize (grid0.coords (lastPt 0)) 2 = 1 from by decide +kernel]; omega
  · refine ⟨lastPt 1, (flush0_2 _).mpr rfl, ?_⟩
    show i ∈ ((View.whole main_v0).slice (win0_2.rect (lastPt 1))).set
    rw [View.set_slice_whole, Rect.mem_set_unit]
    intro a
    match a with
    | ⟨0, _⟩ =>
      show win0_2.index (lastPt 1) 0 * win0_2.size 0 ≤ (i 0 : Nat) ∧ (i 0 : Nat) < win0_2.index (lastPt 1) 0 * win0_2.size 0 + win0_2.xsize (grid0.coords (lastPt 1)) 0
      rw [show win0_2.index (lastPt 1) 0 * win0_2.size 0 = 1 from by decide +kernel, show win0_2.xsize (grid0.coords (lastPt 1)) 0 = 1 from by decide +kernel]; omega
    | ⟨1, _⟩ =>
      show win0_2.index (lastPt 1) 1 * win0_2.size 1 ≤ (i 1 : Nat) ∧ (i 1 : Nat) < win0_2.index (lastPt 1) 1 * win0_2.size 1 + win0_2.xsize (grid0.coords (lastPt 1)) 1
      rw [show win0_2.index (lastPt 1) 1 * win0_2.size 1 = 0 from by decide +kernel, show win0_2.xsize (grid0.coords (lastPt 1)) 1 = 1 from by decide +kernel]; omega
    | ⟨2, _⟩ =>
      show win0_2.index (lastPt 1) 2 * win0_2.size 2 ≤ (i 2 : Nat) ∧ (i 2 : Nat) < win0_2.index (lastPt 1) 2 * win0_2.size 2 + win0_2.xsize (grid0.coords (lastPt 1)) 2
      rw [show win0_2.index (lastPt 1) 2 * win0_2.size 2 = 0 from by decide +kernel, show win0_2.xsize (grid0.coords (lastPt 1)) 2 = 1 from by decide +kernel]; omega

/-- So the region's result array ends at `halves`. -/
theorem final (c : Dev nD) : (dats m 0 c).arrAt 2 cfg0.N = halves m c :=
  (dats m 0 c).arrAt_eq_of_cover 2 (halves m c) (flushed_eq m c) (cover c)

/-- A [2, 1, 1] index is its first coordinate, so a sum over such indices is the sum over the two halves. -/
def idx211Equiv : (⟨3, ![2, 1, 1]⟩ : Shape).Idx ≃ Fin 2 where
  toFun i := i 0
  invFun h := ix3 h (0 : Fin 1) (0 : Fin 1)
  left_inv i := by
    funext a
    apply Fin.ext
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega
  right_inv _ := rfl

theorem sum_idx211 {M : Type*} [AddCommMonoid M] (f : (⟨3, ![2, 1, 1]⟩ : Shape).Idx → M) :
    ∑ i, f i = ∑ h : Fin 2, f (ix3 h (0 : Fin 1) (0 : Fin 1)) := by
  rw [← Equiv.sum_comp idx211Equiv.symm f]
  rfl

/-- THE HOST TAIL: the two halves added from zero and divided by 65536 is the mean row loss. -/
theorem tail_eq (c : Dev nD) :
    Pipeline.afterTail₀ cfgs (dats m) 0 (V0 m) [hostOps1] c main_v2 = fun _ => mean (argX m c) (argT m c) := by
  unfold Pipeline.afterTail₀
  show StableHlo.after hostOps1 _ (Proc.devRef .tc main_v2) = _
  after_results
  rw [Pipeline.withArrays_arr spec0 launch0.win.arr_inj c _ _ 2, final m c]
  funext j
  show Ideal.div (Host.reduceAdd (halves m c) (constant (F := Ideal) S_ .f32 0x00000000#32) reducesTo_S2x1x1_S_d0_1_2 h_S_ j) nRows = _
  have e : Host.reduceAdd (halves m c) (constant (F := Ideal) S_ .f32 0x00000000#32) reducesTo_S2x1x1_S_d0_1_2 h_S_ j
      = zero + ∑ i : S2x1x1.Idx, halves m c i := by
    simp only [Host.reduceAdd, Ideal.hostReduceAdd_def]
    exact Ideal.hostReduceAdd_total reducesTo_S2x1x1_S_d0_1_2 (fun b => b.elim0) _ _ j
  rw [e]
  unfold mean
  refine congrArg (fun s => Ideal.div (zero + s) nRows) ?_
  rw [total_eq_halves, sum_idx211]
  rfl

/-- THE KERNEL'S RUN, READ: every weakly fair execution terminates with the result at the mean row loss of the
    arguments, the arguments unchanged. -/
theorem run : θ_run defs (onTc (τ := τ) (main (F := Ideal))) ⟨m, fun _ => 0, ρ⟩ fun r => ∀ c : Dev nD,
      r.2.mem ((c.tc : Thread nD τ).loc main_v2) = (fun _ => mean (argX m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.RefRun.lean ====
/-
  The reference program's run, read back.

  The reference is a straight line of 69 host operations (the five `jnp.where`s stand inline at their call sites). Every
  weakly fair execution of it terminates with the result buffer at the operations' composed term of the two argument
  arrays, the arguments unchanged. The composed term is stated here over a few named stages, each a whole-array function
  of the arguments: the negatives' mask, the row maxima as a column, the shifted exponentials, a sum over the negatives
  as a column, the candidates' losses, the integer count of positives, the positives' loss sums, the loss over the
  negatives only, the row losses, and their mean.
-/
import proofs.«139822_g35150012350881_feedfinal_650_5_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 69 operations, in order (an outlined `jnp.where` stands inline at its call: the broadcast of its scalar, then the select, over the call's own buffers). -/
abbrev ops : List (HloOp τ sig (Elt F)) :=
  [ nullary main_cst (constant S_ .f32 0x3F000000#32),
    unary main_cst main_v0 (broadcastInDim S65536x1000 ![] bcast_S_S65536x1000 : (⟨S_, .f32⟩ : BufTy).Contents (Elt F) → (⟨S65536x1000, .f32⟩ : BufTy).Contents (Elt F)),
    binary main_arg1 main_v0 main_v1 (cmpf .ole : (⟨S65536x1000, .f32⟩ : BufTy).Contents (Elt F) → (⟨S65536x1000, .f32⟩ : BufTy).Contents (Elt F) → (⟨S65536x1000, .i1⟩ : BufTy).Contents (Elt F)),
    nullary main_cst_0 (constant S_ .f32 0xFF800000#32),
    binary main_arg0 main_cst_0 main_v2 ((fun x v => Host.reduce FloatOps.maximumf x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v2 main_v3 (broadcastInDim S65536x1 ![0] bcast_S65536_S65536x1_0 : (⟨S65536, .f32⟩ : BufTy).Contents (Elt F) → (⟨S65536x1, .f32⟩ : BufTy).Contents (Elt F)),
    unary main_v3 main_v4 (broadcastInDim S65536x1000 ![0, 1] bcast_S65536x1_S65536x1000_0_1 : (⟨S65536x1, .f32⟩ : BufTy).Contents (Elt F) → (⟨S65536x1000, .f32⟩ : BufTy).Contents (Elt F)),
    binary main_arg0 main_v4 main_v5 (subf : (⟨S65536x1000, .f32⟩ : BufTy).Contents (Elt F) → (⟨S65536x1000, .f32⟩ : BufTy).Contents (Elt F) → (⟨S65536x1000, .f32⟩ : BufTy).Contents (Elt F)),
    unary main_v5 main_v6 (Host.exp : (⟨S65536x1000, .f32⟩ : BufTy).Contents (Elt F) → (⟨S65536x1000, .f32⟩ : BufTy).Contents (Elt F)),
    nullary main_cst_1 (constant S_ .f32 0x00000000#32),
    unary main_cst_1 main_call0_v0 (broadcastInDim S65536x1000 ![] bcast_S_S65536x1000 : (⟨S_, .f32⟩ : BufTy).Contents (Elt F) → (⟨S65536x1000, .f32⟩ : BufTy).Contents (Elt F)),
    ternary main_v1 main_v6 main_call0_v0 main_v7 (select : (⟨S65536x1000, .i1⟩ : BufTy).Contents (Elt F) → (⟨S65536x1000, .f32⟩ : BufTy).Contents (Elt F) → (⟨S65536x1000, .f32⟩ : BufTy).Contents (Elt F) → (⟨S65536x1000, .f32⟩ : BufTy).Contents (Elt F)),
    nullary main_cst_2 (constant S_ .f32 0x00000000#32),
    binary main_v7 main_cst_2 main_v8 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v8 main_v9 (broadcastInDim S65536x1 ![0] bcast_S65536_S65536x1_0 : (⟨S65536, .f32⟩ : BufTy).Contents (Elt F) → (⟨S65536x1, .f32⟩ : BufTy).Contents (Elt F)),
    nullary main_cst_3 (constant S_ .f32 0x00000000#32),
    unary main_cst_3 main_call1_v0 (broadcastInDim S65536x1000 ![] bcast_S_S65536x1000 : (⟨S_, .f32⟩ : BufTy).Contents (Elt F) → (⟨S65536x1000, .f32⟩ : BufTy).Contents (Elt F)),
    ternary main_v1 main_arg1 main_call1_v0 main_v10 (select : (⟨S65536x1000, .i1⟩ : BufTy).Contents (Elt F) → (⟨S65536x1000, .f32⟩ : BufTy).Contents (Elt F) → (⟨S65536x1000, .f32⟩ : BufTy).Contents (Elt F) → (⟨S65536x1000, .f32⟩ : BufTy).Contents (Elt F)),
    nullary main_cst_4 (constant S_ .f32 0x00000000#32),
    binary main_v10 main_cst_4 main_v11 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v11 main_v12 (broadcastInDim S65536x1 ![0] bcast_S65536_S65536x1_0 : (⟨S65536, .f32⟩ : BufTy).Contents (Elt F) → (⟨S65536x1, .f32⟩ : BufTy).Contents (Elt F)),
    binary main_arg1 main_arg0 main_v13 (mulf : (⟨S65536x1000, .f32⟩ : BufTy).Contents (Elt F) → (⟨S65536x1000, .f32⟩ : BufTy).Contents (Elt F) → (⟨S65536x1000, .f32⟩ : BufTy).Contents (Elt F)),
    nullary main_cst_5 (constant S_ .f32 0x00000000#32),
    unary main_cst_5 main_call2_v0 (broadcastInDim S65536x1000 ![] bcast_S_S65536x1000 : (⟨S_, .f32⟩ : BufTy).Contents (Elt F) → (⟨S65536x1000, .f32⟩ : BufTy).Contents (Elt F)),
    ternary main_v1 main_v13 main_call2_v0 main_v14 (select : (⟨S65536x1000, .i1⟩ : BufTy).Contents (Elt F) → (⟨S65536x1000, .f32⟩ : BufTy).Contents (Elt F) → (⟨S65536x1000, .f32⟩ : BufTy).Contents (Elt F) → (⟨S65536x1000, .f32⟩ : BufTy).Contents (Elt F)),
    nullary main_cst_6 (constant S_ .f32 0x00000000#32),
    binary main_v14 main_cst_6 main_v15 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v15 main_v16 (broadcastInDim S65536x1 ![0] bcast_S65536_S65536x1_0 : (⟨S65536, .f32⟩ : BufTy).Contents (Elt F) → (⟨S65536x1, .f32⟩ : BufTy).Contents (Elt F)),
    unary main_v9 main_v17 (broadcastInDim S65536x1000 ![0, 1] bcast_S65536x1_S65536x1000_0_1 : (⟨S65536x1, .f32⟩ : BufTy).Contents (Elt F) → (⟨S65536x1000, .f32⟩ : BufTy).Contents (Elt F)),
    binary main_v17 main_v6 main_v18 (addf : (⟨S65536x1000, .f32⟩ : BufTy).Contents (Elt F) → (⟨S65536x1000, .f32⟩ : BufTy).Contents (Elt F) → (⟨S65536x1000, .f32⟩ : BufTy).Contents (Elt F)),
    unary main_v18 main_v19 (Host.log : (⟨S65536x1000, .f32⟩ : BufTy).Contents (Elt F) → (⟨S65536x1000, .f32⟩ : BufTy).Contents (Elt F)),
    unary main_v3 main_v20 (broadcastInDim S65536x1000 ![0, 1] bcast_S65536x1_S65536x1000_0_1 : (⟨S65536x1, .f32⟩ : BufTy).Contents (Elt F) → (⟨S65536x1000, .f32⟩ : BufTy).Contents (Elt F)),
    binary main_v20 main_v19 main_v21 (addf : (⟨S65536x1000, .f32⟩ : BufTy).Contents (Elt F) → (⟨S65536x1000, .f32⟩ : BufTy).Contents (Elt F) → (⟨S65536x1000, .f32⟩ : BufTy).Contents (Elt F)),
    unary main_v12 main_v22 (broadcastInDim S65536x1000 ![0, 1] bcast_S65536x1_S65536x1000_0_1 : (⟨S65536x1, .f32⟩ : BufTy).Contents (Elt F) → (⟨S65536x1000, .f32⟩ : BufTy).Contents (Elt F)),
    binary main_v22 main_arg1 main_v23 (addf : (⟨S65536x1000, .f32⟩ : BufTy).Contents (Elt F) → (⟨S65536x1000, .f32⟩ : BufTy).Contents (Elt F) → (⟨S65536x1000, .f32⟩ : BufTy).Contents (Elt F)),
    binary main_v23 main_v21 main_v24 (mulf : (⟨S65536x1000, .f32⟩ : BufTy).Contents (Elt F) → (⟨S65536x1000, .f32⟩ : BufTy).Contents (Elt F) → (⟨S65536x1000, .f32⟩ : BufTy).Contents (Elt F)),
    unary main_v16 main_v25 (broadcastInDim S65536x1000 ![0, 1] bcast_S65536x1_S65536x1000_0_1 : (⟨S65536x1, .f32⟩ : BufTy).Contents (Elt F) → (⟨S65536x1000, .f32⟩ : BufTy).Contents (Elt F)),
    binary main_v24 main_v25 main_v26 (subf : (⟨S65536x1000, .f32⟩ : BufTy).Contents (Elt F) → (⟨S65536x1000, .f32⟩ : BufTy).Contents (Elt F) → (⟨S65536x1000, .f32⟩ : BufTy).Contents (Elt F)),
    binary main_arg1 main_arg0 main_v27 (mulf : (⟨S65536x1000, .f32⟩ : BufTy).Contents (Elt F) → (⟨S65536x1000, .f32⟩ : BufTy).Contents (Elt F) → (⟨S65536x1000, .f32⟩ : BufTy).Contents (Elt F)),
    binary main_v26 main_v27 main_v28 (subf : (⟨S65536x1000, .f32⟩ : BufTy).Contents (Elt F) → (⟨S65536x1000, .f32⟩ : BufTy).Contents (Elt F) → (⟨S65536x1000, .f32⟩ : BufTy).Contents (Elt F)),
    unary main_v1 main_v29 (noti : (⟨S65536x1000, .i1⟩ : BufTy).Contents (Elt F) → (⟨S65536x1000, .i1⟩ : BufTy).Contents (Elt F)),
    unary main_v29 main_v30 ((extui 32 · natLt_1_32) : (⟨S65536x1000, .i1⟩ : BufTy).Contents (Elt F) → (⟨S65536x1000, .i32⟩ : BufTy).Contents (Elt F)),
    nullary main_c (constantI S_ 32 0#32),
    binary main_v30 main_c main_v31 ((fun x v => Host.reduce IntOp.addi x v reducesTo_S65536x1000_S65536_d1 h_S_) : (⟨S65536x1000, .i32⟩ : BufTy).Contents (Elt F) → (⟨S_, .i32⟩ : BufTy).Contents (Elt F) → (⟨S65536, .i32⟩ : BufTy).Contents (Elt F)),
    nullary main_cst_7 (constant S_ .f32 0x00000000#32),
    unary main_cst_7 main_call3_v0 (broadcastInDim S65536x1000 ![] bcast_S_S65536x1000 : (⟨S_, .f32⟩ : BufTy).Contents (Elt F) → (⟨S65536x1000, .f32⟩ : BufTy).Contents (Elt F)),
    ternary main_v29 main_v28 main_call3_v0 main_v32 (select : (⟨S65536x1000, .i1⟩ : BufTy).Contents (Elt F) → (⟨S65536x1000, .f32⟩ : BufTy).Contents (Elt F) → (⟨S65536x1000, .f32⟩ : BufTy).Contents (Elt F) → (⟨S65536x1000, .f32⟩ : BufTy).Contents (Elt F)),
    nullary main_cst_8 (constant S_ .f32 0x00000000#32),
    binary main_v32 main_cst_8 main_v33 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v9 main_v34 (Host.log : (⟨S65536x1, .f32⟩ : BufTy).Contents (Elt F) → (⟨S65536x1, .f32⟩ : BufTy).Contents (Elt F)),
    binary main_v3 main_v34 main_v35 (addf : (⟨S65536x1, .f32⟩ : BufTy).Contents (Elt F) → (⟨S65536x1, .f32⟩ : BufTy).Contents (Elt F) → (⟨S65536x1, .f32⟩ : BufTy).Contents (Elt F)),
    reshape main_v35 main_v36 rfl shapeCasts_S65536x1_S65536,
    reshape main_v12 main_v37 rfl shapeCasts_S65536x1_S65536,
    binary main_v37 main_v36 main_v38 (mulf : (⟨S65536, .f32⟩ : BufTy).Contents (Elt F) → (⟨S65536, .f32⟩ : BufTy).Contents (Elt F) → (⟨S65536, .f32⟩ : BufTy).Contents (Elt F)),
    reshape main_v16 main_v39 rfl shapeCasts_S65536x1_S65536,
    binary main_v38 main_v39 main_v40 (subf : (⟨S65536, .f32⟩ : BufTy).Contents (Elt F) → (⟨S65536, .f32⟩ : BufTy).Contents (Elt F) → (⟨S65536, .f32⟩ : BufTy).Contents (Elt F)),
    nullary main_c_9 (constantI S_ 32 1#32),
    unary main_c_9 main_v41 (broadcastInDim S65536 ![] bcast_S_S65536 : (⟨S_, .i32⟩ : BufTy).Contents (Elt F) → (⟨S65536, .i32⟩ : BufTy).Contents (Elt F)),
    binary main_v31 main_v41 main_v42 (maxsi : (⟨S65536, .i32⟩ : BufTy).Contents (Elt F) → (⟨S65536, .i32⟩ : BufTy).Contents (Elt F) → (⟨S65536, .i32⟩ : BufTy).Contents (Elt F)),
    unary main_v42 main_v43 (sitofp .f32 : (⟨S65536, .i32⟩ : BufTy).Contents (Elt F) → (⟨S65536, .f32⟩ : BufTy).Contents (Elt F)),
    nullary main_c_10 (constantI S_ 32 0#32),
    unary main_c_10 main_v44 (broadcastInDim S65536 ![] bcast_S_S65536 : (⟨S_, .i32⟩ : BufTy).Contents (Elt F) → (⟨S65536, .i32⟩ : BufTy).Contents (Elt F)),
    binary main_v31 main_v44 main_v45 (cmpi .sgt : (⟨S65536, .i32⟩ : BufTy).Contents (Elt F) → (⟨S65536, .i32⟩ : BufTy).Contents (Elt F) → (⟨S65536, .i1⟩ : BufTy).Contents (Elt F)),
    binary main_v33 main_v43 main_v46 (Host.divf : (⟨S65536, .f32⟩ : BufTy).Contents (Elt F) → (⟨S65536, .f32⟩ : BufTy).Contents (Elt F) → (⟨S65536, .f32⟩ : BufTy).Contents (Elt F)),
    ternary main_v45 main_v46 main_v40 main_v47 (select : (⟨S65536, .i1⟩ : BufTy).Contents (Elt F) → (⟨S65536, .f32⟩ : BufTy).Contents (Elt F) → (⟨S65536, .f32⟩ : BufTy).Contents (Elt F) → (⟨S65536, .f32⟩ : BufTy).Contents (Elt F)),
    nullary main_cst_11 (constant S_ .f32 0x00000000#32),
    binary main_v47 main_cst_11 main_v48 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_12 (constant S_ .f32 0x47800000#32),
    binary main_v48 main_cst_12 main_v49 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., binary_bufs_sub .., unary_bufs_sub .., unary_bufs_sub .., binary_bufs_sub .., unary_bufs_sub .., nullary_bufs_sub .., unary_bufs_sub .., ternary_bufs_sub .., nullary_bufs_sub .., binary_bufs_sub .., unary_bufs_sub .., nullary_bufs_sub .., unary_bufs_sub .., ternary_bufs_sub .., nullary_bufs_sub .., binary_bufs_sub .., unary_bufs_sub .., binary_bufs_sub .., nullary_bufs_sub .., unary_bufs_sub .., ternary_bufs_sub .., nullary_bufs_sub .., binary_bufs_sub .., unary_bufs_sub .., unary_bufs_sub .., binary_bufs_sub .., unary_bufs_sub .., unary_bufs_sub .., binary_bufs_sub .., unary_bufs_sub .., binary_bufs_sub .., binary_bufs_sub .., unary_bufs_sub .., binary_bufs_sub .., binary_bufs_sub .., binary_bufs_sub .., unary_bufs_sub .., unary_bufs_sub .., nullary_bufs_sub .., binary_bufs_sub .., nullary_bufs_sub .., unary_bufs_sub .., ternary_bufs_sub .., nullary_bufs_sub .., binary_bufs_sub .., unary_bufs_sub .., binary_bufs_sub .., reshape_bufs_sub .., reshape_bufs_sub .., binary_bufs_sub .., reshape_bufs_sub .., binary_bufs_sub .., nullary_bufs_sub .., unary_bufs_sub .., binary_bufs_sub .., unary_bufs_sub .., nullary_bufs_sub .., unary_bufs_sub .., binary_bufs_sub .., binary_bufs_sub .., ternary_bufs_sub .., nullary_bufs_sub .., binary_bufs_sub .., nullary_bufs_sub .., binary_bufs_sub ..⟩

/-! ## The stages -/

abbrev Mat (F : FTy → Type) := FVec F S65536x1000 .f32
abbrev MatB := IVec S65536x1000 1
abbrev Col (F : FTy → Type) := FVec F S65536x1 .f32
abbrev Vct (F : FTy → Type) := FVec F S65536 .f32
abbrev VctI := IVec S65536 32
abbrev Scl (F : FTy → Type) := FVec F S_ .f32

/-- The negatives' mask: `t ≤ 1/2`. -/
def negMask (t : Mat F) : MatB :=
  cmpf .ole t (broadcastInDim S65536x1000 ![] bcast_S_S65536x1000 (constant S_ .f32 0x3F000000#32))

/-- The row maxima, as a column. -/
def rmaxCol (x : Mat F) : Col F :=
  broadcastInDim S65536x1 ![0] bcast_S65536_S65536x1_0
    (Host.reduce FloatOps.maximumf x (constant S_ .f32 0xFF800000#32) reducesTo_S65536x1000_S65536_d1 h_S_)

/-- A column laid along every column of the matrix. -/
def spread (v : Col F) : Mat F := broadcastInDim S65536x1000 ![0, 1] bcast_S65536x1_S65536x1000_0_1 v

/-- `exp (x - max x)`, row by row. -/
def expS (x : Mat F) : Mat F := Host.exp (subf x (spread (rmaxCol x)))

/-- The zero matrix the `where`s select. -/
def zeros : Mat F := broadcastInDim S65536x1000 ![] bcast_S_S65536x1000 (constant S_ .f32 0x00000000#32)

/-- The row sums of `v` over the negatives, as a column. -/
def negSumCol (t v : Mat F) : Col F :=
  broadcastInDim S65536x1 ![0] bcast_S65536_S65536x1_0
    (Host.reduceAdd (select (negMask t) v zeros) (constant S_ .f32 0x00000000#32) reducesTo_S65536x1000_S65536_d1 h_S_)

/-- The candidates' losses. -/
def cand (x t : Mat F) : Mat F :=
  subf (subf (mulf (addf (spread (negSumCol t t)) t)
      (addf (spread (rmaxCol x)) (Host.log (addf (spread (negSumCol t (expS x))) (expS x)))))
    (spread (negSumCol t (mulf t x)))) (mulf t x)

/-- The number of positives per row, in 32-bit integers. -/
def cnt (t : Mat F) : VctI :=
  Host.reduce IntOp.addi (extui 32 (noti (negMask t)) natLt_1_32) (constantI S_ 32 0#32) reducesTo_S65536x1000_S65536_d1 h_S_

/-- The candidates' losses summed over the positives, per row. -/
def posSum (x t : Mat F) : Vct F :=
  Host.reduceAdd (select (noti (negMask t)) (cand x t) zeros) (constant S_ .f32 0x00000000#32) reducesTo_S65536x1000_S65536_d1 h_S_

/-- A column as a vector. -/
def flat (v : Col F) : Vct F := fun i => shapeCast S65536 v shapeCasts_S65536x1_S65536 i

/-- The loss over the negatives only, per row. -/
def fb (x t : Mat F) : Vct F :=
  subf (mulf (flat (negSumCol t t)) (flat (addf (rmaxCol x) (Host.log (negSumCol t (expS x)))))) (flat (negSumCol t (mulf t x)))

/-- The row losses. -/
def rowL (x t : Mat F) : Vct F :=
  select (cmpi .sgt (cnt t) (broadcastInDim S65536 ![] bcast_S_S65536 (constantI S_ 32 0#32)))
    (Host.divf (posSum x t) (sitofp .f32 (maxsi (cnt t) (broadcastInDim S65536 ![] bcast_S_S65536 (constantI S_ 32 1#32)))))
    (fb x t)

/-- The result: the mean row loss. -/
def res (x t : Mat F) : Scl F :=
  Host.divf (Host.reduceAdd (rowL x t) (constant S_ .f32 0x00000000#32) reducesTo_S65536_S_d0 h_S_) (constant S_ .f32 0x47800000#32)

/-! ## The run -/

set_option maxRecDepth 16384 in
set_option maxHeartbeats 40000000 in
/-- The operations' composed term at the result buffer is `res` of the arguments. -/
theorem after_result (m : (ℓ : Loc nD τ sig) → Buf (Elt F) ℓ) (c : Dev nD) :
    after (ops (F := F)) (launchContents m c) (Proc.devRef .tc main_v49)
      = res (m ((c.tc : Thread nD τ).loc main_arg0)) (m ((c.tc : Thread nD τ).loc main_arg1)) := by
  after_results_simp
  rfl

set_option maxRecDepth 16384 in
set_option maxHeartbeats 40000000 in
/-- No operation writes the first argument. -/
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 16384 in
set_option maxHeartbeats 40000000 in
/-- No operation writes the second argument. -/
theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

/-- On every device, for any float values, from any memory with zero counters: every weakly fair execution of @main
    terminates with the result at `res` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v49).trans (after_result m c),
      (h c main_arg0).trans (after_arg0 m c), (h c main_arg1).trans (after_arg1 m c)⟩)
    (run_seq scopedRefs_eq scopedSems_eq defs main (fun _ => ops) main_eq (fun _ => ops_sub) m ρ)

end Cert.ReferenceIdeal.RefRun

end
-- ==== Proof.RefValue.lean ====
/-
  The reference's result, read at an index of the extended reals.

  Each stage of the reference is a whole-array operation; read at row `i` (and lane `k`) it is the row quantity of
  `Spec`: the host's maximum over a row from `-∞` is the row's maximum, a host sum over a row is `0 +` the sum, a
  column laid along the lanes gives every lane the column's entry, `where (not neg) a 0` is `where neg 0 a`, and the
  integer count of the positives, clamped below by one and converted, is the float count clamped below by one. So each
  row's value is `rowLoss` of the row, and the result is the mean of the row losses.
-/
import proofs.«139822_g35150012350881_feedfinal_650_5_alg».proof.Proof.RefRun
import proofs.«139822_g35150012350881_feedfinal_650_5_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.RefRun Cert.CELoss

/-- Row `i` of a [65536, 1000] array. -/
def arow (x : FVec Ideal S65536x1000 .f32) (i : Fin 65536) : Fin 1000 → EReal := fun k => x (ix2 i k)

/-- A row by its number as a natural is the row. -/
theorem rowAt_val (x : FVec Ideal S65536x1000 .f32) (i : Fin 65536) : rowAt x i.val = arow x i :=
  funext fun k => congrArg (fun a : Fin 65536 => x (ix2 a k)) (Fin.ext (Nat.mod_eq_of_lt i.isLt))

/-! ## The layout operations and the reductions of the reference, at an index -/

/-- Reducing the lanes of a [65536, 1000] array leaves its rows. -/
theorem hR : S65536x1000.Reduces [1] S65536 := by decide

/-- Lane `k` put back into row `i`'s reduced index is the entry (i, k). -/
theorem lift_lane (i : Fin 65536) (k : Fin 1000) : hR.lift (ix1 i) k = ix2 i k := by
  funext c; apply Fin.ext
  fin_cases c <;> rfl

/-- A [65536] vector as a [65536, 1] column: entry (i, 0) is entry i. -/
theorem col_apply {α : Type} (v : S65536.Idx → α) (h : S65536.BroadcastsInDim S65536x1 ![0]) (i : Fin 65536) :
    broadcastInDim S65536x1 ![0] h v (ix2 i (0 : Fin 1)) = v (ix1 i) :=
  broadcastInDim_apply ![0] h v (ix2 i (0 : Fin 1)) (ix1 i) (fun a => match a with
    | ⟨0, _⟩ => by show i.val = if (65536 : Nat) = 1 then 0 else i.val; rw [if_neg (by decide)])

/-- A column laid along the lanes: entry (i, k) is the column's entry (i, 0). -/
theorem spread_apply (v : FVec Ideal S65536x1 .f32) (i : Fin 65536) (k : Fin 1000) :
    spread (F := Ideal) v (ix2 i k) = v (ix2 i (0 : Fin 1)) := by
  unfold spread
  exact broadcastInDim_apply ![0, 1] _ v (ix2 i k) (ix2 i (0 : Fin 1)) (fun a => match a with
    | ⟨0, _⟩ => by show i.val = if (65536 : Nat) = 1 then 0 else i.val; rw [if_neg (by decide)]
    | ⟨1, _⟩ => by show (0 : Nat) = if (1 : Nat) = 1 then 0 else k.val; rw [if_pos rfl])

/-- A column as a vector: entry i is the column's entry (i, 0). -/
theorem flat_apply (v : FVec Ideal S65536x1 .f32) (i : Fin 65536) : flat (F := Ideal) v (ix1 i) = v (ix2 i (0 : Fin 1)) :=
  shapeCast_apply v _ (ix1 i) (ix2 i (0 : Fin 1)) (by
    rw [Shape.rowMajor_val_one, Shape.rowMajor_val_two]
    show i.val * 1 + 0 = i.val
    omega)

/-- A rank-1 index is its coordinate, so a sum over rank-1 indices is the sum over the coordinate. -/
def idx1Equiv (n : Nat) : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ i : Fin n, f (ix1 i) := by
  rw [← Equiv.sum_comp (idx1Equiv n).symm f]
  rfl

/-- `where (not c) a b` is `where c b a`. -/
theorem select_not {α : Type} (c : BitVec 1) (a b : α) : Scalar.select (~~~c) a b = Scalar.select c b a := by
  rcases BitVec.eq_zero_or_eq_one c with h | h <;> subst h
  · rw [show (~~~(0#1 : BitVec 1)) = 1#1 from by decide, select_one, select_zero]
  · rw [show (~~~(1#1 : BitVec 1)) = 0#1 from by decide, select_one, select_zero]

/-- The host's sum over the lanes from zero: entry i is the sum of row i. -/
theorem hostRowSum (y : FVec Ideal S65536x1000 .f32) (i : Fin 65536) :
    Host.reduceAdd y (constant (F := Ideal) S_ .f32 0x00000000#32) reducesTo_S65536x1000_S65536_d1 h_S_ (ix1 i)
      = ∑ k : Fin 1000, y (ix2 i k) := by
  simp only [Host.reduceAdd, Ideal.hostReduceAdd_def]
  refine (Ideal.hostReduceAdd_single reducesTo_S65536x1000_S65536_d1 hR y _ (ix1 i)).trans ?_
  refine (congrArg (· + _) zero_eq).trans ((zero_add _).trans ?_)
  show ∑ k : Fin 1000, y (hR.lift (ix1 i) k) = _
  exact Finset.sum_congr rfl fun k _ => congrArg y (lift_lane i k)

/-- The host's maximum over the lanes from `-∞`: entry i is the maximum of row i. -/
theorem hostRowMax (y : FVec Ideal S65536x1000 .f32) (i : Fin 65536) :
    Host.reduce FloatOps.maximumf y (constant (F := Ideal) S_ .f32 0xFF800000#32) reducesTo_S65536x1000_S65536_d1 h_S_ (ix1 i)
      = rowMax (arow y i) := by
  refine (Host.reduce_eq_fold_single FloatOps.maximumf y _ reducesTo_S65536x1000_S65536_d1 hR h_S_ (ix1 i)).trans ?_
  show (Finset.univ : Finset (Fin 1000)).fold max negInf (y ∘ hR.lift (ix1 i)) = _
  unfold rowMax
  exact congrArg (fun f => (Finset.univ : Finset (Fin 1000)).fold max negInf f)
    (funext fun k => congrArg y (lift_lane i k))

/-- The host's 32-bit sum over the lanes from zero: entry i is the fold of the additions over row i. -/
theorem hostRowCount (z : IVec S65536x1000 32) (i : Fin 65536) :
    Host.reduce IntOp.addi z (constantI S_ 32 0#32) reducesTo_S65536x1000_S65536_d1 h_S_ (ix1 i)
      = (Finset.univ : Finset (Fin 1000)).fold IntOp.addi 0#32 (fun k => z (ix2 i k)) := by
  refine (Host.reduce_eq_fold_single IntOp.addi z _ reducesTo_S65536x1000_S65536_d1 hR h_S_ (ix1 i)).trans ?_
  show (Finset.univ : Finset (Fin 1000)).fold IntOp.addi 0#32 (z ∘ hR.lift (ix1 i)) = _
  exact congrArg (fun f => (Finset.univ : Finset (Fin 1000)).fold IntOp.addi 0#32 f)
    (funext fun k => congrArg z (lift_lane i k))

/-- The host's logarithm at an index. -/
theorem hostLog_apply {s : Shape} (v : FVec Ideal s .f32) (j : s.Idx) : Host.log v j = Ideal.log (v j) := rfl

/-! ## The stages, row by row -/

variable (x t : FVec Ideal S65536x1000 .f32)

/-- The row maxima. -/
theorem rmaxCol_apply (i : Fin 65536) : rmaxCol (F := Ideal) x (ix2 i (0 : Fin 1)) = rowMax (arow x i) := by
  unfold rmaxCol
  refine (col_apply _ _ i).trans ?_
  exact hostRowMax x i

/-- A sum over the negatives of a row. -/
theorem negSumCol_apply (v : FVec Ideal S65536x1000 .f32) (i : Fin 65536) :
    negSumCol (F := Ideal) t v (ix2 i (0 : Fin 1)) = ∑ k : Fin 1000, Scalar.select (isNeg (t (ix2 i k))) (v (ix2 i k)) zero := by
  unfold negSumCol
  refine (col_apply _ _ i).trans ?_
  refine (hostRowSum _ i).trans ?_
  rfl

/-- The shifted exponential. -/
theorem expS_apply (i : Fin 65536) (k : Fin 1000) : expS (F := Ideal) x (ix2 i k) = expShift (arow x i) k := by
  show Ideal.exp (x (ix2 i k) - spread (F := Ideal) (rmaxCol (F := Ideal) x) (ix2 i k)) = _
  rw [spread_apply, rmaxCol_apply]
  rfl

/-- The three sums over the negatives. -/
theorem sNeg_apply (i : Fin 65536) :
    negSumCol (F := Ideal) t (expS (F := Ideal) x) (ix2 i (0 : Fin 1)) = sNeg (arow x i) (arow t i) := by
  rw [negSumCol_apply]
  exact Finset.sum_congr rfl fun k _ => by rw [expS_apply]; rfl
theorem tNeg_apply (i : Fin 65536) : negSumCol (F := Ideal) t t (ix2 i (0 : Fin 1)) = tNeg (arow t i) := by
  rw [negSumCol_apply]; rfl
theorem aNeg_apply (i : Fin 65536) :
    negSumCol (F := Ideal) t (mulf t x) (ix2 i (0 : Fin 1)) = aNeg (arow x i) (arow t i) := by
  rw [negSumCol_apply]; rfl

/-- The candidates' losses. -/
theorem cand_apply (i : Fin 65536) (k : Fin 1000) : cand (F := Ideal) x t (ix2 i k) = candLoss (arow x i) (arow t i) k := by
  unfold cand
  rw [subf_apply, subf_apply, mulf_apply, mulf_apply, addf_apply, addf_apply, hostLog_apply, addf_apply]
  rw [spread_apply, spread_apply, spread_apply, spread_apply, tNeg_apply, rmaxCol_apply, sNeg_apply, aNeg_apply, expS_apply]
  rfl

/-- The integer count of the positives is the count's word. -/
theorem cnt_apply (i : Fin 65536) : cnt (F := Ideal) t (ix1 i) = BitVec.ofNat 32 (count fun k => isNeg (t (ix2 i k))) := by
  unfold cnt
  refine (hostRowCount _ i).trans ?_
  exact int_count fun k => isNeg (t (ix2 i k))

/-- The candidates' losses summed over the positives. -/
theorem posSum_apply (i : Fin 65536) : posSum (F := Ideal) x t (ix1 i) = posLoss (arow x i) (arow t i) := by
  unfold posSum
  refine (hostRowSum _ i).trans ?_
  unfold posLoss
  refine Finset.sum_congr rfl fun k _ => ?_
  show Scalar.select (~~~(isNeg (t (ix2 i k)))) (cand (F := Ideal) x t (ix2 i k)) zero = _
  rw [select_not, cand_apply]
  rfl

/-- The loss over the negatives only. -/
theorem fb_apply (i : Fin 65536) : fb (F := Ideal) x t (ix1 i) = fallback (arow x i) (arow t i) := by
  unfold fb
  rw [subf_apply, mulf_apply, flat_apply, flat_apply, flat_apply, addf_apply, hostLog_apply]
  rw [tNeg_apply, rmaxCol_apply, sNeg_apply, aNeg_apply]
  rfl

/-- The row's loss. -/
theorem rowL_apply (i : Fin 65536) : rowL (F := Ideal) x t (ix1 i) = rowLoss (arow x i) (arow t i) := by
  show Scalar.select (IntOp.cmpi .sgt (cnt (F := Ideal) t (ix1 i)) 0#32)
      (Ideal.div (posSum (F := Ideal) x t (ix1 i)) (((IntOp.maxsi (cnt (F := Ideal) t (ix1 i)) 1#32).toInt : ℝ) : EReal))
      (fb (F := Ideal) x t (ix1 i)) = _
  rw [cnt_apply, posSum_apply, fb_apply, divisor_eq _ (count_le _), haspos_eq _ (count_le _)]
  have e : nPos (arow t i) = ((count (fun k => isNeg (t (ix2 i k))) : ℕ) : EReal) := float_count fun k => isNeg (t (ix2 i k))
  unfold rowLoss
  rw [e]

/-- THE REFERENCE'S VALUE: the mean of the row losses. -/
theorem res_eq (j : S_.Idx) : res (F := Ideal) x t j = mean x t := by
  unfold res
  show Ideal.div (Host.reduceAdd (rowL (F := Ideal) x t) (constant (F := Ideal) S_ .f32 0x00000000#32) reducesTo_S65536_S_d0 h_S_ j) nRows = _
  have e : Host.reduceAdd (rowL (F := Ideal) x t) (constant (F := Ideal) S_ .f32 0x00000000#32) reducesTo_S65536_S_d0 h_S_ j
      = zero + ∑ i : S65536.Idx, rowL (F := Ideal) x t i := by
    simp only [Host.reduceAdd, Ideal.hostReduceAdd_def]
    exact Ideal.hostReduceAdd_total reducesTo_S65536_S_d0 (fun b => b.elim0) _ _ j
  rw [e]
  unfold mean total
  refine congrArg (fun s => Ideal.div (zero + s) nRows) ?_
  rw [sum_idx1]
  exact Finset.sum_congr rfl fun i _ => (rowL_apply x t i).trans (by unfold lossAt; rw [rowAt_val, rowAt_val])

end Cert.ReferenceIdeal.RefValue

end
-- ==== Proof.lean ====
/-
  The multi-vector soft-label cross-entropy: a fused one-pass kernel against its jnp reference, over the extended reals.

  Both programs compute, for each of 65536 rows of 1000 logits `x` and soft labels `t`, the row's maximum `m`, the
  shifted exponentials `e = exp (x - m)`, the sums `S = ∑ e`, `T = ∑ t`, `A = ∑ t·x` over the negatives (`t ≤ 1/2`), the
  candidate losses `(T + t_p)·(m + log (S + e_p)) - A - t_p·x_p`, and the row loss: their mean over the positives, or
  `T·(m + log S) - A` for a row without positives. The result is the mean of the row losses (`Spec`: `mean`).

  The two differ in three ways, none of which needs the inputs to be finite:
  * the reference counts the positives in 32-bit integers (the complemented mask widened and summed, clamped below by
    one, converted), the kernel in floats; a row has at most 1000 positives, so the two divisors and the two
    "has a positive" tests agree (`Spec`: `divisor_eq`, `haspos_eq`);
  * the reference masks with `where (not neg) a 0`, the kernel with `where neg 0 a`;
  * the reference sums the 65536 row losses at once; the kernel sums 256 rows per grid point into a [1, 1, 1] block that
    it resets at the first of the 128 points of each half of the grid, writes each half's block back once, and the host
    lines after the kernel add the two halves from zero. Addition on the extended reals is commutative and associative
    and `0 + a = a`, so the two totals agree (`Spec`: `total_eq_halves`).

  The kernel's frame is the generated one at both instances; its value is read off that frame's run: what each of the
  body's two control cases leaves in the output block (`KernelPieces`), read at an index (`KernelRow`), accumulated over
  the grid by induction on the point (`KernelBlocks`), written back and passed through the host lines after the kernel
  (`KernelFinal`). The reference's run (`RefRun`) is read at an index in `RefValue`. The idealization rewrote nothing,
  so `preserves` is trivial.
-/
import proofs.«139822_g35150012350881_feedfinal_650_5_alg».proof.Defs
import proofs.«139822_g35150012350881_feedfinal_650_5_alg».proof.Proof.Gen.Kernel
import proofs.«139822_g35150012350881_feedfinal_650_5_alg».proof.Proof.Gen.Kernel.Skeleton
import proofs.«139822_g35150012350881_feedfinal_650_5_alg».proof.Proof.Gen.Kernel.Launch
import proofs.«139822_g35150012350881_feedfinal_650_5_alg».proof.Proof.Gen.Kernel.Points
import proofs.«139822_g35150012350881_feedfinal_650_5_alg».proof.Proof.Gen.Kernel.Frame
import proofs.«139822_g35150012350881_feedfinal_650_5_alg».proof.Proof.Gen.KernelIdeal
import proofs.«139822_g35150012350881_feedfinal_650_5_alg».proof.Proof.Gen.KernelIdeal.Skeleton
import proofs.«139822_g35150012350881_feedfinal_650_5_alg».proof.Proof.Gen.KernelIdeal.Launch
import proofs.«139822_g35150012350881_feedfinal_650_5_alg».proof.Proof.Gen.KernelIdeal.Points
import proofs.«139822_g35150012350881_feedfinal_650_5_alg».proof.Proof.Gen.KernelIdeal.Frame
import proofs.«139822_g35150012350881_feedfinal_650_5_alg».proof.Proof.Gen.ReferenceIdeal
import proofs.«139822_g35150012350881_feedfinal_650_5_alg».proof.Proof.Gen.Pre_finite_inputs
import proofs.«139822_g35150012350881_feedfinal_650_5_alg».proof.Proof.KernelFinal
import proofs.«139822_g35150012350881_feedfinal_650_5_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end at the mean row loss of arguments that agree. -/
theorem algebraic : Cert.algebraic_KernelIdeal_ReferenceIdeal := by
  intro m ρ m' ρ' _ hagree
  refine ⟨fun c => fun _ => Cert.CELoss.mean (Cert.KernelIdeal.Blocks.argX m c) (Cert.KernelIdeal.Blocks.argT m c),
    Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  funext j
  exact Cert.ReferenceIdeal.RefValue.res_eq _ _ j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
